-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4096x1024 : Shape := ⟨2, ![4096, 1024]⟩
abbrev S1 : Shape := ⟨1, ![1]⟩
abbrev S4096 : Shape := ⟨1, ![4096]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1 : S_.BroadcastsInDim S1 (![] : Fin 0 → Fin S1.rank)
  reducesTo_S1_S_d0 : S1.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x4096x1024 .f32) (main_arg1 : FVec F S4096x1024 .f32) (main_arg2 : FVec F S1 .f32) (main_arg3 : FVec F S1 .f32) (main_arg4 : FVec F S4096 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_v13 main_v16
-- ==== Kernel.lean ====
abbrev S4x4096x1024 : Shape := ⟨3, ![4, 4096, 1024]⟩
abbrev S4096x1024 : Shape := ⟨2, ![4096, 1024]⟩
abbrev S1 : Shape := ⟨1, ![1]⟩
abbrev S4096 : Shape := ⟨1, ![4096]⟩
abbrev S1x1 : Shape := ⟨2, ![1, 1]⟩
abbrev S1024x4096 : Shape := ⟨2, ![1024, 4096]⟩
abbrev S1x4096 : Shape := ⟨2, ![1, 4096]⟩
abbrev S16384x1024 : Shape := ⟨2, ![16384, 1024]⟩
abbrev S16384x4096 : Shape := ⟨2, ![16384, 4096]⟩
abbrev S4x4096x4096 : Shape := ⟨3, ![4, 4096, 4096]⟩
abbrev S512x1024 : Shape := ⟨2, ![512, 1024]⟩
abbrev S512x4096 : Shape := ⟨2, ![512, 4096]⟩

abbrev nBuf : Space → Nat
  | .hbm => 20
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S1, .f32⟩
  | .hbm, ⟨3, _⟩ => ⟨S1, .f32⟩
  | .hbm, ⟨4, _⟩ => ⟨S4096, .f32⟩
  | .hbm, ⟨5, _⟩ => ⟨S1, .f32⟩
  | .hbm, ⟨6, _⟩ => ⟨S1, .f32⟩
  | .hbm, ⟨7, _⟩ => ⟨S1, .f32⟩
  | .hbm, ⟨8, _⟩ => ⟨S1x1, .f32⟩
  | .hbm, ⟨9, _⟩ => ⟨S4096x1024, .f32⟩
  | .hbm, ⟨10, _⟩ => ⟨S4096x1024, .i1⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .bf16⟩
  | .hbm, ⟨15, _⟩ => ⟨S1024x4096, .bf16⟩
  | .hbm, ⟨16, _⟩ => ⟨S1x4096, .f32⟩
  | .hbm, ⟨17, _⟩ => ⟨S16384x1024, .f32⟩
  | .hbm, ⟨18, _⟩ => ⟨S16384x4096, .f32⟩
  | .hbm, ⟨19, _⟩ => ⟨S4x4096x4096, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S1_S1x1_1 : S1.BroadcastsInDim S1x1 (![1] : Fin 1 → Fin S1x1.rank)
  bcast_S1x1_S4096x1024_0_1 : S1x1.BroadcastsInDim S4096x1024 (![0, 1] : Fin 2 → Fin S4096x1024.rank)
  bcast_S1_S4096x1024_1 : S1.BroadcastsInDim S4096x1024 (![1] : Fin 1 → Fin S4096x1024.rank)
  bitsLt_bf16_f32 : FTy.bits .bf16 < FTy.bits .f32
  transposes_S4096x1024_S1024x4096_1_0 : S4096x1024.Transposes [1, 0] S1024x4096
  shapeCasts_S4096_S1x4096 : S4096.ShapeCasts S1x4096
  shapeCasts_S4x4096x1024_S16384x1024 : S4x4096x1024.ShapeCasts S16384x1024
  shapeCasts_S16384x4096_S4x4096x4096 : S16384x4096.ShapeCasts S4x4096x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  dot_S512x1024_S1024x4096_S512x4096_1_0_0_1_n_n_wf : DotDims.WF S512x1024 S1024x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S16384x4096.size a
  hwx0_3 : ∀ i : grid0.Coords, EltTy.bits .f32 = 32 ∨ (Rect.block (s := S16384x4096) S512x4096.size (cc0_transform_3 i) (hinb0_3 i)).WholeWords (EltTy.packing .f32)

variable [Facts₀]

def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf

abbrev win0_0 : Pipeline.Window sig grid0 :=
  Pipeline.Window.ofSpec (Memref.whole main_call0_v10) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v8) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v9) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v11) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4096x1024 : Shape := ⟨2, ![4096, 1024]⟩
abbrev S1 : Shape := ⟨1, ![1]⟩
abbrev S4096 : Shape := ⟨1, ![4096]⟩
abbrev S1x1 : Shape := ⟨2, ![1, 1]⟩
abbrev S4x4096x4096 : Shape := ⟨3, ![4, 4096, 4096]⟩
abbrev S1x1x4096 : Shape := ⟨3, ![1, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S1, .f32⟩
  | .hbm, ⟨3, _⟩ => ⟨S1, .f32⟩
  | .hbm, ⟨4, _⟩ => ⟨S4096, .f32⟩
  | .hbm, ⟨5, _⟩ => ⟨S1, .f32⟩
  | .hbm, ⟨6, _⟩ => ⟨S1, .f32⟩
  | .hbm, ⟨7, _⟩ => ⟨S1, .f32⟩
  | .hbm, ⟨8, _⟩ => ⟨S1x1, .f32⟩
  | .hbm, ⟨9, _⟩ => ⟨S4096x1024, .f32⟩
  | .hbm, ⟨10, _⟩ => ⟨S4096x1024, .i1⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4x4096x4096, .f32⟩
  | .hbm, ⟨15, _⟩ => ⟨S1x1x4096, .f32⟩
  | .hbm, ⟨16, _⟩ => ⟨S4x4096x4096, .f32⟩
  | .hbm, ⟨17, _⟩ => ⟨S4x4096x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S4096x1024_0_1 : S1x1.BroadcastsInDim S4096x1024 (![0, 1] : Fin 2 → Fin S4096x1024.rank)
  bcast_S1_S4096x1024_1 : S1.BroadcastsInDim S4096x1024 (![1] : Fin 1 → Fin S4096x1024.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4x4096x1024_S4096x1024_S4x4096x4096_2_1_01_0_n_n_wf : DotDims.WF S4x4096x1024 S4096x1024 S4x4096x4096 [2] [1] [0, 1] [0] [] []

variable [Facts₀]

def dot_S4x4096x1024_S4096x1024_S4x4096x4096_2_1_01_0_n_n : DotDims S4x4096x1024 S4096x1024 S4x4096x4096 where
  lhsContracting := [2]
  rhsContracting := [1]
  lhsNonContracting := [0, 1]
  rhsNonContracting := [0]
  lhsBatch := []
  rhsBatch := []
  wf := dot_S4x4096x1024_S4096x1024_S4x4096x4096_2_1_01_0_n_n_wf

class Facts : Prop extends Facts₀ where

variable [Facts]
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.BodyEntry.lean ====
/-
  What one grid step stores, read at an entry. The body loads a [512, 1024] block of input rows, the whole
  [1024, 4096] transposed weight matrix and the [1, 4096] bias row, multiplies the rows by the weights into a zero
  accumulator and adds the bias row to every row of the product. On the extended reals the change of format on the
  way into the product is the identity, so entry (p, q) of what is stored is Σ_k rows[p, k] · wT[k, q] + b[0, q].
-/
import proofs.«123064_j9844065042856_2_alg».proof.Proof.Gen.KernelIdeal.Skeleton
import proofs.«123064_j9844065042856_2_alg».proof.Proof.LibMatmulPlain
import Idealize.ShloMosaic.Lib.Pipeline.Value
import Idealize.ShloMosaic.Lib.ValueIdx

noncomputable section

namespace Cert.BinLinear

open Cert.KernelIdeal Cert.KernelIdeal.Gen Idealize.ShloMosaic Idealize.ShloMosaic.ValueIdx

/-- The bias row broadcast down the 512 rows of a block reads, at (p, q), the row's entry q. -/
theorem biasRows_apply (b : FVec Ideal S1x4096 .f32) (p : Fin 512) (q : Fin 4096) :
    broadcastTo S512x4096 b broadcasts_S1x4096_S512x4096 (ix2 p q) = b (ix2 (0 : Fin 1) q) :=
  broadcastTo_apply b broadcasts_S1x4096_S512x4096 (ix2 p q) (ix2 (0 : Fin 1) q) (fun a => by
    match a with
    | ⟨0, _⟩ => show 0 = if (1 : Nat) = 1 then 0 else p.val; rw [if_pos rfl]
    | ⟨1, _⟩ => show q.val = if (4096 : Nat) = 1 then 0 else q.val; rw [if_neg (by decide)])

/-- Entry (p, q) of the block a grid step stores. -/
theorem stored_apply (x0 : Vec Ideal S512x1024 .f32) (x1 : Vec Ideal S1024x4096 .bf16) (x2 : Vec Ideal S1x4096 .f32)
    (p : Fin 512) (q : Fin 4096) :
    k0_pay1 (F := Ideal) x0 x1 x2 (ix2 p q) = (∑ k : Fin 1024, x0 (ix2 p k) * x1 (ix2 k q)) + x2 (ix2 (0 : Fin 1) q) := by
  unfold k0_pay1
  rw [shapeCast_self, shapeCast_self, shapeCast_self]
  refine (addf_apply _ _ (ix2 p q)).trans ?_
  refine congrArg₂ (· + ·) ?_ (biasRows_apply x2 p q)
  exact Cert.LibMatmulPlain.matmul_zero_apply dot_S512x1024_S1024x4096_S512x4096_1_0_0_1_n_n_wf none
    (truncf .bf16 x0 bitsLt_bf16_f32) x1 p q

end Cert.BinLinear

end
-- ==== Proof.Linear.lean ====
/-
  The layer both programs compute, as functions of whole arrays on the extended reals.

  A row r of the flattened input meets column q of the transposed weight matrix: the entry is the sum over the 1024
  input features k of x[r, k] · wT[k, q], plus the bias of output feature q (`affineAt`, `affineRows`). The same
  entry addressed by (batch, position, output feature) over the unflattened input and the untransposed weights is
  `linearAt`, `linear`. Only sums and products appear, so nothing here needs the entries to be finite.
-/
import Idealize.ShloMosaic.PureOps.Ideal
import Idealize.ShloMosaic.Lib.ValueIdx

noncomputable section

namespace Cert.BinLinear

open Idealize.ShloMosaic Idealize.ShloMosaic.ValueIdx

/-- Entry (r, q) of rows · transposed weights + bias row: Σ_k x[r, k] · wT[k, q] + b[0, q]. -/
def affineAt (x : FVec Ideal ⟨2, ![16384, 1024]⟩ .f32) (wT : FVec Ideal ⟨2, ![1024, 4096]⟩ .bf16)
    (b : FVec Ideal ⟨2, ![1, 4096]⟩ .f32) (r : Fin 16384) (q : Fin 4096) : Ideal .f32 :=
  (∑ k : Fin 1024, x (ix2 r k) * wT (ix2 k q)) + b (ix2 (0 : Fin 1) q)

/-- The [16384, 4096] matrix of those entries. -/
def affineRows (x : FVec Ideal ⟨2, ![16384, 1024]⟩ .f32) (wT : FVec Ideal ⟨2, ![1024, 4096]⟩ .bf16)
    (b : FVec Ideal ⟨2, ![1, 4096]⟩ .f32) : FVec Ideal ⟨2, ![16384, 4096]⟩ .f32 :=
  fun j => affineAt x wT b (j 0) (j 1)

/-- Entry (a, s, o) of the layer over the unflattened input: Σ_k x[a, s, k] · w[o, k] + bias[o]. -/
def linearAt (x : FVec Ideal ⟨3, ![4, 4096, 1024]⟩ .f32) (w : FVec Ideal ⟨2, ![4096, 1024]⟩ .f32)
    (bias : FVec Ideal ⟨1, ![4096]⟩ .f32) (a : Fin 4) (s : Fin 4096) (o : Fin 4096) : Ideal .f32 :=
  (∑ k : Fin 1024, x (ix3 a s k) * w (ix2 o k)) + bias (ix1 o)

/-- The [4, 4096, 4096] array of those entries. -/
def linear (x : FVec Ideal ⟨3, ![4, 4096, 1024]⟩ .f32) (w : FVec Ideal ⟨2, ![4096, 1024]⟩ .f32)
    (bias : FVec Ideal ⟨1, ![4096]⟩ .f32) : FVec Ideal ⟨3, ![4, 4096, 4096]⟩ .f32 :=
  fun i => linearAt x w bias (i 0) (i 1) (i 2)

end Cert.BinLinear

end
-- ==== Proof.Blocks.lean ====
/-
  From the 32 grid steps to the whole [16384, 4096] result. Step t reads rows 512·t … 512·t + 511 of the flattened
  input, the whole transposed weight matrix and the whole bias row, and writes back rows 512·t … 512·t + 511 of the
  result, all 4096 columns. What it writes is that block of ONE matrix, rows · transposed weights + bias row
  (`affineRows`), because its input rows are exactly the rows its output rows need. The 32 row blocks tile the result,
  so after the last step the result array is that matrix.
-/
import proofs.«123064_j9844065042856_2_alg».proof.Proof.Gen.KernelIdeal.Frame
import proofs.«123064_j9844065042856_2_alg».proof.Proof.BodyEntry
import proofs.«123064_j9844065042856_2_alg».proof.Proof.Linear
import Idealize.ShloMosaic.Lib.Pipeline.Value
import Idealize.ShloMosaic.Lib.ValueIdx

noncomputable section

namespace Cert.BinLinear

open Cert.KernelIdeal Cert.KernelIdeal.Gen Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ)

theorem zeroOffsets : (![0, 0] : Fin 2 → Nat) = fun _ => 0 := funext fun a => by fin_cases a <;> rfl

/-- The block indices, decided over the 32 steps: the rows window moves with the result window down the rows and
    never sideways; the weights and the bias row stay at block (0, 0); the result window's row block is the step's
    number and its column block is 0. -/
theorem blockIndices : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 31 ∧ win0_3.index t (1 : Fin 2) = 0 :=
  (by decide +kernel : ∀ t : Fin grid0.N, _)

/-- Every one of the 32 row blocks is some step's. -/
theorem rowBlock_onto : ∀ b : Fin 32, ∃ t : Fin cfg0.N, win0_3.index t = ![b.val, 0] :=
  (by decide +kernel : ∀ b : Fin 32, ∃ t : Fin grid0.N, win0_3.index t = ![b.val, 0])

/-- The stored block at (p, q) is the affine entry (r, q') whenever the loaded rows, weights and bias row agree with
    the whole operands at the places that entry reads. -/
theorem stored_eq_affineAt (X : FVec Ideal ⟨2, ![16384, 1024]⟩ .f32) (WT : FVec Ideal ⟨2, ![1024, 4096]⟩ .bf16)
    (B : FVec Ideal ⟨2, ![1, 4096]⟩ .f32)
    (x0 : Vec Ideal S512x1024 .f32) (x1 : Vec Ideal S1024x4096 .bf16) (x2 : Vec Ideal S1x4096 .f32)
    (p : Fin 512) (q : Fin 4096) (r : Fin 16384) (q' : Fin 4096)
    (h0 : ∀ k : Fin 1024, x0 (ix2 p k) = X (ix2 r k))
    (h1 : ∀ k : Fin 1024, x1 (ix2 k q) = WT (ix2 k q'))
    (h2 : x2 (ix2 (0 : Fin 1) q) = B (ix2 (0 : Fin 1) q')) :
    k0_pay1 (F := Ideal) x0 x1 x2 (ix2 p q) = affineAt X WT B r q' := by
  rw [stored_apply x0 x1 x2 p q]
  unfold affineAt
  rw [h2]
  exact congrArg (· + B (ix2 (0 : Fin 1) q')) (Finset.sum_congr rfl fun k _ => by rw [h0 k, h1 k])

/-- WHAT STEP t WRITES BACK is block t of rows · transposed weights + bias row, of the operand arrays as the grid
    finds them. -/
theorem flushed_eq (c : Dev nD) (t : Fin cfg0.N) :
    (dats m 0 c).flushed 3 t = ((cfg0.win 3).blk t).view.read (Elt Ideal)
      (affineRows (V m c main_call0_v10) (V m c main_call0_v8) (V m c main_call0_v9)) := by
  show (cfg0.win 3).cut (grid0.coords t) ((dats m 0 c).after 3 t) = _
  rw [after0_3]
  unfold out0_3
  rw [View.canon_unit_zero zeroOffsets]
  simp only [View.ld_unit_zero (S := S512x1024) zeroOffsets, View.ld_unit_zero (S := S1024x4096) zeroOffsets,
    View.ld_unit_zero (S := S1x4096) zeroOffsets]
  obtain ⟨e0, e1, e2, e3, e4, e5, e6, e7⟩ := blockIndices t
  funext j
  obtain ⟨p, q, rfl⟩ : ∃ (p : Fin 512) (q : Fin 4096), j = ix2 p q := ⟨j 0, j 1, eq_ix2 j⟩
  show k0_pay1 (F := Ideal) (iblk m c 0 t) (iblk m c 1 t) (iblk m c 2 t) (ix2 p q)
    = affineAt (V m c main_call0_v10) (V m c main_call0_v8) (V m c main_call0_v9)
        (((cfg0.win 3).blk t).view.emb (ix2 p q) 0) (((cfg0.win 3).blk t).view.emb (ix2 p q) 1)
  refine stored_eq_affineAt (V m c main_call0_v10) (V m c main_call0_v8) (V m c main_call0_v9)
    (iblk m c 0 t) (iblk m c 1 t) (iblk m c 2 t) p q
    (((cfg0.win 3).blk t).view.emb (ix2 p q) 0) (((cfg0.win 3).blk t).view.emb (ix2 p q) 1) ?_ ?_ ?_
  · intro k
    show V m c main_call0_v10 (((cfg0.win 0).blk t).view.emb (ix2 p k)) = V m c main_call0_v10 _
    refine congrArg (V m c main_call0_v10) (funext fun a => Fin.ext ?_)
    match a with
    | ⟨0, _⟩ =>
      show win0_0.index t (0 : Fin 2) * 512 + 1 * p.val = win0_3.index t (0 : Fin 2) * 512 + 1 * p.val
      omega
    | ⟨1, _⟩ =>
      show win0_0.index t (1 : Fin 2) * 1024 + 1 * k.val = k.val
      omega
  · intro k
    show V m c main_call0_v8 (((cfg0.win 1).blk t).view.emb (ix2 k q)) = V m c main_call0_v8 _
    refine congrArg (V m c main_call0_v8) (funext fun a => Fin.ext ?_)
    match a with
    | ⟨0, _⟩ =>
      show win0_1.index t (0 : Fin 2) * 1024 + 1 * k.val = k.val
      omega
    | ⟨1, _⟩ =>
      show win0_1.index t (1 : Fin 2) * 4096 + 1 * q.val = win0_3.index t (1 : Fin 2) * 4096 + 1 * q.val
      omega
  · show V m c main_call0_v9 (((cfg0.win 2).blk t).view.emb (ix2 (0 : Fin 1) q)) = V m c main_call0_v9 _
    refine congrArg (V m c main_call0_v9) (funext fun a => Fin.ext ?_)
    match a with
    | ⟨0, _⟩ =>
      show win0_2.index t (0 : Fin 2) * 1 + 1 * 0 = 0
      omega
    | ⟨1, _⟩ =>
      show win0_2.index t (1 : Fin 2) * 4096 + 1 * q.val = win0_3.index t (1 : Fin 2) * 4096 + 1 * q.val
      omega

/-- An entry of the result is in step t's block iff each coordinate is in the block's range on its axis. -/
theorem mem_block (t : Fin cfg0.N) (i : S16384x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_call0_v11).slice (win0_3.rect t)).set ↔ _
  rw [View.set_slice_whole, Rect.mem_set_unit]
  exact Iff.rfl

/-- Every entry of the result lies in the block of the step numbered by its row divided by 512. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := rowBlock_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 4096 ≤ (i 1).val ∧ (i 1).val < win0_3.index t (1 : Fin 2) * 4096 + 4096
    omega

/-- THE RESULT ARRAY after the last step is rows · transposed weights + bias row. -/
theorem resultRows (c : Dev nD) :
    (dats m 0 c).arrAt 3 cfg0.N
      = affineRows (V m c main_call0_v10) (V m c main_call0_v8) (V m c main_call0_v9) :=
  (dats m 0 c).arrAt_eq_of_cover 3 _ (fun t _ => flushed_eq m c t) covered

end Cert.BinLinear

end
-- ==== Proof.Operands.lean ====
/-
  What the grid finds in its three operand arrays. Before the grid runs, the host flattens the input
  [4, 4096, 1024] -> [16384, 1024]; binarizes the weights (an entry below the threshold max(c1, c2) - min(c1, c2)
  becomes min(c1, c2), any other max(c1, c2)), changes their format and transposes them to [1024, 4096]; and views
  the bias as a [1, 4096] row. Each array is that composite of the launch arrays, whatever the float instance.
-/
import proofs.«123064_j9844065042856_2_alg».proof.Proof.Gen.KernelIdeal.Frame
import Idealize.ShloMosaic.Lib.StableHlo.Run
import Idealize.ShloMosaic.Lib.Pipeline.Value

noncomputable section

namespace Cert.BinLinear

open Cert.KernelIdeal Cert.KernelIdeal.Gen Idealize.ShloMosaic Idealize.ShloMosaic.TcCoe Idealize.SL.Sem
  Idealize.ShloMosaic.StableHlo

variable {F : FTy → Type} [FloatOps F]

/-- The binarized weights: below the threshold max(c1, c2) - min(c1, c2) an entry becomes min(c1, c2), otherwise
    max(c1, c2). -/
def binarized (w : Vec F S4096x1024 .f32) (c1 c2 : Vec F S1 .f32) : Vec F S4096x1024 .f32 :=
  select
    (cmpf .olt w (broadcastInDim S4096x1024 ![0, 1] bcast_S1x1_S4096x1024_0_1
      (broadcastInDim S1x1 ![1] bcast_S1_S1x1_1 (subf (maximumf c1 c2) (minimumf c1 c2)))))
    (broadcastInDim S4096x1024 ![1] bcast_S1_S4096x1024_1 (minimumf c1 c2))
    (broadcastInDim S4096x1024 ![1] bcast_S1_S4096x1024_1 (maximumf c1 c2))

variable (m : (ℓ : Loc nD τ sig) → Buf (Elt F) ℓ)

/-- The rows operand is the input, flattened. -/
theorem rows_eq (c : Dev nD) :
    (V m c main_call0_v10 : Vec F S16384x1024 .f32)
      = shapeCast S16384x1024 (m ((c : Thread nD τ).loc main_arg0) : Vec F S4x4096x1024 .f32)
          shapeCasts_S4x4096x1024_S16384x1024 := by
  show StableHlo.after hostOps0 (fun b => m (c, b)) (Proc.devRef .tc main_call0_v10) = _
  after_results
  rfl

/-- The bias operand is the bias, viewed as one row. -/
theorem biasRow_eq (c : Dev nD) :
    (V m c main_call0_v9 : Vec F S1x4096 .f32)
      = shapeCast S1x4096 (m ((c : Thread nD τ).loc main_arg4) : Vec F S4096 .f32) shapeCasts_S4096_S1x4096 := by
  show StableHlo.after hostOps0 (fun b => m (c, b)) (Proc.devRef .tc main_call0_v9) = _
  after_results
  rfl

/-- The weights operand is the binarized weights, their format changed, transposed. -/
theorem weightsT_eq (c : Dev nD) :
    (V m c main_call0_v8 : Vec F S1024x4096 .bf16)
      = transpose S1024x4096 [1, 0]
          (truncf .bf16 (binarized (m ((c : Thread nD τ).loc main_arg1)) (m ((c : Thread nD τ).loc main_arg2))
            (m ((c : Thread nD τ).loc main_arg3))) bitsLt_bf16_f32 : Vec F S4096x1024 .bf16)
          transposes_S4096x1024_S1024x4096_1_0 := by
  show StableHlo.after hostOps0 (fun b => m (c, b)) (Proc.devRef .tc main_call0_v8) = _
  after_results
  rfl

end Cert.BinLinear

end
-- ==== Proof.Layout.lean ====
/-
  The flat matrix form and the (batch, position, feature) form of the layer are one array.

  Row r = a · 4096 + s of the flattened input is row (a, s) of the input; entry (k, o) of the transposed weights is
  entry (o, k) of the weights, the change of format being the identity on the extended reals; entry (0, o) of the
  bias row is bias[o]; and entry (a, s, o) of the unflattened result is entry (a · 4096 + s, o) of the flat result.
  Each is a statement about row-major positions. Together: the flat rows · transposed weights + bias row, unflattened,
  is Σ_k x[a, s, k] · w[o, k] + bias[o].
-/
import proofs.«123064_j9844065042856_2_alg».proof.Proof.Linear
import Idealize.ShloMosaic.Lib.Pipeline.Value
import Idealize.ShloMosaic.Lib.ValueIdx

noncomputable section

namespace Cert.BinLinear

open Idealize.ShloMosaic Idealize.ShloMosaic.ValueIdx

variable {α : Type}

/-- Row a · 4096 + s of the flattened input is row (a, s) of the input. -/
theorem flatRows_apply (x : (⟨3, ![4, 4096, 1024]⟩ : Shape).Idx → α)
    (h : (⟨3, ![4, 4096, 1024]⟩ : Shape).ShapeCasts ⟨2, ![16384, 1024]⟩)
    (a : Fin 4) (s : Fin 4096) (k : Fin 1024) (r : Fin 16384) (hr : r.val = a.val * 4096 + s.val) :
    shapeCast ⟨2, ![16384, 1024]⟩ x h (ix2 r k) = x (ix3 a s k) :=
  shapeCast_apply x h (ix2 r k) (ix3 a s k) (by
    rw [Shape.rowMajor_val_three, Shape.rowMajor_val_two]
    show (a.val * 4096 + s.val) * 1024 + k.val = r.val * 1024 + k.val
    rw [hr])

/-- Entry (0, o) of the bias viewed as a row is bias[o]. -/
theorem biasRow_apply (b : (⟨1, ![4096]⟩ : Shape).Idx → α)
    (h : (⟨1, ![4096]⟩ : Shape).ShapeCasts ⟨2, ![1, 4096]⟩) (o : Fin 4096) :
    shapeCast ⟨2, ![1, 4096]⟩ b h (ix2 (0 : Fin 1) o) = b (ix1 o) :=
  shapeCast_apply b h (ix2 (0 : Fin 1) o) (ix1 o) (by
    rw [Shape.rowMajor_val_one, Shape.rowMajor_val_two]
    show o.val = 0 * 4096 + o.val
    omega)

/-- Entry (k, o) of the transposed matrix is entry (o, k) of the matrix. -/
theorem transposed_apply (w : (⟨2, ![4096, 1024]⟩ : Shape).Idx → α)
    (h : (⟨2, ![4096, 1024]⟩ : Shape).Transposes [1, 0] ⟨2, ![1024, 4096]⟩) (k : Fin 1024) (o : Fin 4096) :
    transpose ⟨2, ![1024, 4096]⟩ [1, 0] w h (ix2 k o) = w (ix2 o k) :=
  transpose_apply [1, 0] w h (ix2 k o) (ix2 o k) (fun b => by
    match b with
    | ⟨0, _⟩ => rfl
    | ⟨1, _⟩ => rfl)

/-- Entry (a, s, o) of the unflattened result is entry (a · 4096 + s, o) of the flat one. -/
theorem unflatten_apply (y : (⟨2, ![16384, 4096]⟩ : Shape).Idx → α)
    (h : (⟨2, ![16384, 4096]⟩ : Shape).ShapeCasts ⟨3, ![4, 4096, 4096]⟩)
    (a : Fin 4) (s : Fin 4096) (o : Fin 4096) (r : Fin 16384) (hr : r.val = a.val * 4096 + s.val) :
    shapeCast ⟨3, ![4, 4096, 4096]⟩ y h (ix3 a s o) = y (ix2 r o) :=
  shapeCast_apply y h (ix3 a s o) (ix2 r o) (by
    rw [Shape.rowMajor_val_three, Shape.rowMajor_val_two]
    show r.val * 4096 + o.val = (a.val * 4096 + s.val) * 4096 + o.val
    rw [hr])

/-- The flat rows · transposed weights + bias row, unflattened, is the layer. -/
theorem unflatten_affineRows (x : FVec Ideal ⟨3, ![4, 4096, 1024]⟩ .f32) (w : FVec Ideal ⟨2, ![4096, 1024]⟩ .f32)
    (bias : FVec Ideal ⟨1, ![4096]⟩ .f32)
    (hx : (⟨3, ![4, 4096, 1024]⟩ : Shape).ShapeCasts ⟨2, ![16384, 1024]⟩)
    (hlt : FTy.bf16.bits < FTy.f32.bits)
    (hw : (⟨2, ![4096, 1024]⟩ : Shape).Transposes [1, 0] ⟨2, ![1024, 4096]⟩)
    (hb : (⟨1, ![4096]⟩ : Shape).ShapeCasts ⟨2, ![1, 4096]⟩)
    (hy : (⟨2, ![16384, 4096]⟩ : Shape).ShapeCasts ⟨3, ![4, 4096, 4096]⟩) :
    shapeCast ⟨3, ![4, 4096, 4096]⟩
        (affineRows (shapeCast ⟨2, ![16384, 1024]⟩ x hx)
          (transpose ⟨2, ![1024, 4096]⟩ [1, 0] (truncf .bf16 w hlt : FVec Ideal ⟨2, ![4096, 1024]⟩ .bf16) hw)
          (shapeCast ⟨2, ![1, 4096]⟩ bias hb)) hy
      = linear x w bias := by
  funext i
  obtain ⟨a, s, o, rfl⟩ : ∃ (a : Fin 4) (s : Fin 4096) (o : Fin 4096), i = ix3 a s o := ⟨i 0, i 1, i 2, eq_ix3 i⟩
  have hr : a.val * 4096 + s.val < 16384 := by have := a.isLt; have := s.isLt; omega
  rw [unflatten_apply _ hy a s o ⟨a.val * 4096 + s.val, hr⟩ rfl]
  show affineAt _ _ _ ⟨a.val * 4096 + s.val, hr⟩ o = linearAt x w bias a s o
  unfold affineAt linearAt
  rw [biasRow_apply bias hb o]
  refine congrArg (· + bias (ix1 o)) (Finset.sum_congr rfl fun k _ => ?_)
  rw [flatRows_apply x hx a s k ⟨a.val * 4096 + s.val, hr⟩ rfl, transposed_apply _ hw k o]
  rfl

end Cert.BinLinear

end
-- ==== Proof.KernelRun.lean ====
/-
  The kernel's run, with its result named. After the 32 grid steps the flat result array holds
  rows · transposed weights + bias row; the one host operation after the grid unflattens it to [4, 4096, 4096].
  With the operand arrays written out as the host prepared them (flattened input, binarized-reformatted-transposed
  weights, bias as a row), the result is Σ_k x[a, s, k] · w[o, k] + bias[o] over the binarized weights w, and the five
  argument arrays end as they were launched.
-/
import proofs.«123064_j9844065042856_2_alg».proof.Proof.Blocks
import proofs.«123064_j9844065042856_2_alg».proof.Proof.Operands
import proofs.«123064_j9844065042856_2_alg».proof.Proof.Layout
import Idealize.ShloMosaic.Lib.StableHlo.Run
import Idealize.ShloMosaic.PureOps.Ideal

noncomputable section

namespace Cert.BinLinear

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ) (ρ : Dev nD → PrngReg)

/-- The program's result is the flat result array, unflattened. -/
theorem result_unflattened (c : Dev nD) :
    (Pipeline.afterTail₀ cfgs (dats m) 0 (V0 m) [hostOps1] c main_v0 : Vec Ideal S4x4096x4096 .f32)
      = shapeCast S4x4096x4096
          (affineRows (V m c main_call0_v10) (V m c main_call0_v8) (V m c main_call0_v9))
          shapeCasts_S16384x4096_S4x4096x4096 := by
  have hA := (Pipeline.withArrays_arr spec0 launch0.win.arr_inj c (V0 m c)
    (fun w => (dats m 0 c).arrAt w cfg0.N) 3).trans (resultRows m c)
  unfold Pipeline.afterTail₀
  show StableHlo.after hostOps1 _ (Proc.devRef .tc main_v0) = _
  after_results
  exact congrArg (fun y : Vec Ideal S16384x4096 .f32 => shapeCast S4x4096x4096 y shapeCasts_S16384x4096_S4x4096x4096) hA

/-- The program's result is the layer over the binarized weights, of the launch arrays. -/
theorem result_linear (c : Dev nD) :
    (Pipeline.afterTail₀ cfgs (dats m) 0 (V0 m) [hostOps1] c main_v0 : Vec Ideal S4x4096x4096 .f32)
      = linear (m ((c.tc : Thread nD τ).loc main_arg0))
          (binarized (m ((c.tc : Thread nD τ).loc main_arg1)) (m ((c.tc : Thread nD τ).loc main_arg2))
            (m ((c.tc : Thread nD τ).loc main_arg3)))
          (m ((c.tc : Thread nD τ).loc main_arg4)) := by
  refine (result_unflattened m c).trans ?_
  rw [rows_eq m c, weightsT_eq m c, biasRow_eq m c]
  exact unflatten_affineRows _ _ _ _ _ _ _ _

/-- Every weakly fair execution of the kernel's program terminates with the result at the layer over the binarized
    weights and the arguments unchanged. -/
theorem kernelRun : θ_run defs (onTc (τ := τ) (main (F := Ideal))) ⟨m, fun _ => 0, ρ⟩ fun r => ∀ c : Dev nD,
      r.2.mem ((c.tc : Thread nD τ).loc main_v0)
          = linear (m ((c.tc : Thread nD τ).loc main_arg0))
              (binarized (m ((c.tc : Thread nD τ).loc main_arg1)) (m ((c.tc : Thread nD τ).loc main_arg2))
                (m ((c.tc : Thread nD τ).loc main_arg3)))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v0 (Pipeline.mem_restRefs_of main_v0 (by decide) (by decide))).trans (result_linear m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.BinLinear

end
-- ==== Proof.RefEntry.lean ====
/-
  The reference computes the layer directly: a contraction of the input's feature axis with the binarized weights'
  feature axis, plus the bias broadcast over batch and position. Read at (a, s, o) its result is
  Σ_k x[a, s, k] · w[o, k] + bias[o], with w the reference's own binarized weights.
-/
import proofs.«123064_j9844065042856_2_alg».proof.Proof.Gen.ReferenceIdeal.Read
import proofs.«123064_j9844065042856_2_alg».proof.Proof.Linear

noncomputable section

namespace Cert.BinLinear

open Cert.ReferenceIdeal Cert.ReferenceIdeal.Read Idealize.ShloMosaic Idealize.ShloMosaic.ValueIdx

/-- The reference's result is the layer over its binarized weights. -/
theorem reference_eq (x0 : (⟨S4x4096x1024, .f32⟩ : BufTy).Contents (Elt Ideal))
    (x1 : (⟨S4096x1024, .f32⟩ : BufTy).Contents (Elt Ideal)) (x2 x3 : (⟨S1, .f32⟩ : BufTy).Contents (Elt Ideal))
    (x4 : (⟨S4096, .f32⟩ : BufTy).Contents (Elt Ideal)) :
    val_main_v10 (F := Ideal) x0 x1 x2 x3 x4 = linear x0 (val_main_v6 (F := Ideal) x1 x2 x3) x4 := by
  funext i
  obtain ⟨a, s, o, rfl⟩ : ∃ (a : Fin 4) (s : Fin 4096) (o : Fin 4096), i = ix3 a s o := ⟨i 0, i 1, i 2, eq_ix3 i⟩
  have el : ∀ k : Fin 1024, lidx_main_v7 (ix3 a s o) k = ix3 a s k := fun k => funext fun d => Fin.ext (by
    match d with
    | ⟨0, _⟩ => rfl
    | ⟨1, _⟩ => rfl
    | ⟨2, _⟩ => rfl)
  have er : ∀ k : Fin 1024, ridx_main_v7 (ix3 a s o) k = ix2 o k := fun k => funext fun d => Fin.ext (by
    match d with
    | ⟨0, _⟩ => rfl
    | ⟨1, _⟩ => rfl)
  have eb : idx_main_v8 (idx_main_v9 (ix3 a s o)) = ix1 o := funext fun d => Fin.ext (by
    match d with
    | ⟨0, _⟩ => rfl)
  rw [val_main_v10_apply, val_main_v7_apply, val_main_v9_apply, val_main_v8_apply, eb]
  simp only [el, er]
  rfl

end Cert.BinLinear

end
-- ==== Proof.lean ====
/-
  A linear layer with binarized weights, out[a, s, o] = Σ_k x[a, s, k] · w[o, k] + bias[o], where an entry of the
  weights below the threshold max(c1, c2) - min(c1, c2) is replaced by min(c1, c2) and any other by max(c1, c2).

  The reference contracts the input's feature axis with the binarized weights' feature axis and adds the bias. The
  kernel flattens the input to 16384 rows, transposes the binarized weights (changing their format on the way, which
  is the identity on the extended reals), walks the rows in 32 blocks of 512, multiplies each block by the whole
  transposed matrix into a zero accumulator, adds the bias row, and unflattens the result. Row a · 4096 + s of the
  flat product is row (a, s) of the layer and transposing the weights only renames the contraction's two indices,
  so both programs end at the same sum of the same products, entry by entry. Only the order-free laws of + and ·
  are used, so the inputs' finiteness is never opened.

  The three programs run, fault-free, with their arguments unchanged (the two kernels' runs from the generated frame
  modules, the reference's from its generated run); the idealization rewrote nothing.
-/
import proofs.«123064_j9844065042856_2_alg».proof.Defs
import proofs.«123064_j9844065042856_2_alg».proof.Proof.Gen.Kernel
import proofs.«123064_j9844065042856_2_alg».proof.Proof.Gen.Kernel.Skeleton
import proofs.«123064_j9844065042856_2_alg».proof.Proof.Gen.Kernel.Launch
import proofs.«123064_j9844065042856_2_alg».proof.Proof.Gen.Kernel.Points
import proofs.«123064_j9844065042856_2_alg».proof.Proof.Gen.Kernel.Frame
import proofs.«123064_j9844065042856_2_alg».proof.Proof.Gen.KernelIdeal
import proofs.«123064_j9844065042856_2_alg».proof.Proof.Gen.KernelIdeal.Skeleton
import proofs.«123064_j9844065042856_2_alg».proof.Proof.Gen.KernelIdeal.Launch
import proofs.«123064_j9844065042856_2_alg».proof.Proof.Gen.KernelIdeal.Points
import proofs.«123064_j9844065042856_2_alg».proof.Proof.Gen.KernelIdeal.Frame
import proofs.«123064_j9844065042856_2_alg».proof.Proof.Gen.ReferenceIdeal
import proofs.«123064_j9844065042856_2_alg».proof.Proof.Gen.ReferenceIdeal.Run
import proofs.«123064_j9844065042856_2_alg».proof.Proof.Gen.ReferenceIdeal.Read
import proofs.«123064_j9844065042856_2_alg».proof.Proof.Gen.Pre_finite_inputs
import proofs.«123064_j9844065042856_2_alg».proof.Proof.KernelRun
import proofs.«123064_j9844065042856_2_alg».proof.Proof.RefEntry
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs binarize the weights by the same operations on the same arguments. -/
theorem binarized_eq (w : FVec Ideal ⟨2, ![4096, 1024]⟩ .f32) (c1 c2 : FVec Ideal ⟨1, ![1]⟩ .f32) :
    Cert.ReferenceIdeal.Read.val_main_v6 (F := Ideal) w c1 c2 = Cert.BinLinear.binarized (F := Ideal) w c1 c2 := rfl

/-- From arguments that agree, the kernel's result and the reference's are the same layer over the same binarized
    weights. -/
theorem algebraic : Cert.algebraic_KernelIdeal_ReferenceIdeal := by
  intro m ρ m' ρ' _ hagree
  refine ⟨_, Cert.BinLinear.kernelRun m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.BinLinear.reference_eq, binarized_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
